-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x512 : Shape := ⟨2, ![512, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S131072x512 .f32) (main_arg1 : FVec F S512x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S131072x512 : Shape := ⟨2, ![131072, 512]⟩
abbrev S512x512 : Shape := ⟨2, ![512, 512]⟩
abbrev S1024x128 : Shape := ⟨2, ![1024, 128]⟩
abbrev S2048x512 : Shape := ⟨2, ![2048, 512]⟩
abbrev S16x128 : Shape := ⟨2, ![16, 128]⟩
abbrev S2048 : Shape := ⟨1, ![2048]⟩
abbrev S131072x1 : Shape := ⟨2, ![131072, 1]⟩

abbrev nBuf : Space → Nat
  | .hbm => 5
  | .vmem => 5
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512x512, .bf16⟩
  | .hbm, ⟨3, _⟩ => ⟨S1024x128, .f32⟩
  | .hbm, ⟨4, _⟩ => ⟨S131072x1, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S16x128, .f32⟩
  | .local _ .vmem, ⟨4, _⟩ => ⟨S16x128, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S2048x512_S2048 : S2048x512.Reduces [1] S2048
  shapeCasts_S2048_S16x128 : S2048.ShapeCasts S16x128
  inb_S16x128_S16x128_0_0 : ∀ a, (![0, 0] : Fin 2 → Nat) a + S16x128.size a ≤ S16x128.size a
  h_S16x128 : 0 < S16x128.numel
  shapeCasts_S1024x128_S131072x1 : S1024x128.ShapeCasts S131072x1
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S1024x128.size a
  hwx0_2 : ∀ i : grid0.Coords, EltTy.bits .f32 = 32 ∨ (Rect.block (s := S1024x128) S16x128.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x512 : Shape := ⟨2, ![512, 512]⟩
abbrev S_ : Shape := ⟨0, ![]⟩
abbrev S131072 : Shape := ⟨1, ![131072]⟩
abbrev S131072x1 : Shape := ⟨2, ![131072, 1]⟩

abbrev nBuf : Space → Nat
  | .hbm => 7
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S131072x512, .f32⟩
  | .hbm, ⟨3, _⟩ => ⟨S131072x512, .f32⟩
  | .hbm, ⟨4, _⟩ => ⟨S_, .f32⟩
  | .hbm, ⟨5, _⟩ => ⟨S131072, .f32⟩
  | .hbm, ⟨6, _⟩ => ⟨S131072x1, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S131072_S131072x1_0 : S131072.BroadcastsInDim S131072x1 (![0] : Fin 1 → Fin S131072x1.rank)
  dot_S131072x512_S512x512_S131072x512_1_0_0_1_n_n_wf : DotDims.WF S131072x512 S512x512 S131072x512 [1] [0] [0] [1] [] []

variable [Facts₀]

def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.QuadForm.lean ====
/-
  The row-wise quadratic form.

  For a matrix `x` with `K` columns and a square matrix `q` of order `K`, row `b` of `x` has the quadratic form
  Σ_g (Σ_f x(b,f) · q(f,g)) · x(b,g): first the row is multiplied into `q`, then the product row is paired with the
  row itself. The value depends on `x` through row `b` alone, so a block of consecutive rows of `x` has, row by
  row, the quadratic forms of the rows it was cut from.
-/
import Idealize.ShloMosaic.PureOps.Ideal
import Idealize.ShloMosaic.Lib.ValueIdx

noncomputable section

namespace Cert.QuadForm

open Idealize.ShloMosaic Idealize.ShloMosaic.ValueIdx
open scoped BigOperators

/-- The quadratic form of row `b` of `x` under `q`, on the extended reals. -/
def qform {B K : Nat} (x : (⟨2, ![B, K]⟩ : Shape).Idx → EReal) (q : (⟨2, ![K, K]⟩ : Shape).Idx → EReal) (b : Fin B) : EReal :=
  ∑ g : Fin K, (∑ f : Fin K, x (ix2 b f) * q (ix2 f g)) * x (ix2 b g)

/-- The quadratic form of a row only reads that row: two matrices that agree on a row (of possibly different
    positions) under matrices that agree everywhere give the same value. -/
theorem qform_congr {B B' K : Nat} (x : (⟨2, ![B, K]⟩ : Shape).Idx → EReal) (x' : (⟨2, ![B', K]⟩ : Shape).Idx → EReal)
    (q q' : (⟨2, ![K, K]⟩ : Shape).Idx → EReal) (b : Fin B) (b' : Fin B')
    (hx : ∀ f : Fin K, x (ix2 b f) = x' (ix2 b' f)) (hq : ∀ f g : Fin K, q (ix2 f g) = q' (ix2 f g)) :
    qform x q b = qform x' q' b' := by
  unfold qform
  refine Finset.sum_congr rfl fun g _ => ?_
  rw [hx g]
  refine congrArg (· * x' (ix2 b' g)) ?_
  refine Finset.sum_congr rfl fun f _ => ?_
  rw [hx f, hq f g]

end Cert.QuadForm

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowOps.lean ====
/-
  Vector operations on matrices read at an index given by its two coordinates.

  A column vector of row statistics passes through three layout steps on its way back to the matrix it was computed
  from: a vector of length `a` is recast as an `a × 1` column, the column is broadcast along the rows of an
  `a × b` matrix, and before that the statistic itself is a sum along each row. Read at the coordinates `(r, c)`
  these are: the vector's entry `r`; the column's entry `(r, 0)`; and the sum over `k` of the entries `(r, k)`.
  A matrix that is three blocks of equal width laid side by side reads, in each third of its columns, the
  corresponding block; and a sum over the three thirds of an index range splits into three sums over one third.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Mathlib.Algebra.BigOperators.Fin

noncomputable section

namespace Cert.Lib.RowOps

open Idealize.ShloMosaic Idealize.ShloMosaic.ValueIdx

variable {α : Type}

/-! ## The column forms -/

/-- A vector of length `a` recast as an `a × 1` column reads, at `(r, u)`, the vector's entry `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `a × 1` column broadcast along the rows of an `a × b` matrix reads, at `(r, c)`, the column's entry `(r, 0)`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else c.val
    rw [if_pos rfl]

/-- The sum along each row of an `a × b` matrix of extended reals, from the neutral accumulator (which the sum drops),
    reads at `r` the sum over `k` of the entries `(r, k)`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  show ∑ k : Fin b, src (h.lift (ix1 r) k) = ∑ k : Fin b, src (ix2 r k)
  refine Finset.sum_congr rfl fun k _ => congrArg src ?_
  funext d
  match d with
  | ⟨0, _⟩ => exact Fin.ext rfl
  | ⟨1, _⟩ => exact Fin.ext rfl

/-- The reciprocal square root of a matrix of extended reals, entry by entry. -/
theorem rsqrt_apply {s : Shape} {φ : FTy} (a : FVec Ideal s φ) (i : s.Idx) : rsqrt a i = Ideal.rsqrt (a i) := rfl

/-! ## Three blocks side by side -/

section Concat

variable {n w W : ℕ} (x₀ x₁ x₂ : (⟨2, ![n, w]⟩ : Shape).Idx → α)
  (h : Shape.Concatenates [(⟨2, ![n, w]⟩ : Shape), ⟨2, ![n, w]⟩, ⟨2, ![n, w]⟩] ⟨2, ![n, W]⟩ 1)

/-- In the first third of the columns the side-by-side matrix is the first block. -/
theorem concat3_apply_0 (r : Fin n) (k : Fin w) (hk : k.val < W) :
    concatenate ⟨2, ![n, W]⟩ 1 [⟨⟨2, ![n, w]⟩, x₀⟩, ⟨⟨2, ![n, w]⟩, x₁⟩, ⟨⟨2, ![n, w]⟩, x₂⟩] h (ix2 r ⟨k.val, hk⟩)
      = x₀ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨k.val, hk⟩)
    (k := 0) (hk := by simp) (s₁ := ⟨2, ![n, w]⟩) (x₁ := x₀) (hxk := rfl) (hr := rfl) (pre := 0) (hpre := rfl)
    (i := ix2 r k)
    (hi := fun b hb => by
      match b with
      | ⟨0, _⟩ => rfl
      | ⟨1, _⟩ => exact absurd rfl hb)
    (ha := Nat.zero_add _)

/-- In the second third it is the second block. -/
theorem concat3_apply_1 (r : Fin n) (k : Fin w) (hk : w + k.val < W) :
    concatenate ⟨2, ![n, W]⟩ 1 [⟨⟨2, ![n, w]⟩, x₀⟩, ⟨⟨2, ![n, w]⟩, x₁⟩, ⟨⟨2, ![n, w]⟩, x₂⟩] h (ix2 r ⟨w + k.val, hk⟩)
      = x₁ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨w + k.val, hk⟩)
    (k := 1) (hk := by simp) (s₁ := ⟨2, ![n, w]⟩) (x₁ := x₁) (hxk := rfl) (hr := rfl) (pre := w) (hpre := by simp)
    (i := ix2 r k)
    (hi := fun b hb => by
      match b with
      | ⟨0, _⟩ => rfl
      | ⟨1, _⟩ => exact absurd rfl hb)
    (ha := rfl)

/-- In the last third it is the third block. -/
theorem concat3_apply_2 (r : Fin n) (k : Fin w) (hk : w + w + k.val < W) :
    concatenate ⟨2, ![n, W]⟩ 1 [⟨⟨2, ![n, w]⟩, x₀⟩, ⟨⟨2, ![n, w]⟩, x₁⟩, ⟨⟨2, ![n, w]⟩, x₂⟩] h (ix2 r ⟨w + w + k.val, hk⟩)
      = x₂ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨w + w + k.val, hk⟩)
    (k := 2) (hk := by simp) (s₁ := ⟨2, ![n, w]⟩) (x₁ := x₂) (hxk := rfl) (hr := rfl) (pre := (w + w)) (hpre := by simp)
    (i := ix2 r k)
    (hi := fun b hb => by
      match b with
      | ⟨0, _⟩ => rfl
      | ⟨1, _⟩ => exact absurd rfl hb)
    (ha := rfl)

end Concat

/-! ## A sum over three thirds -/

/-- A sum over `w + w + w` indices is the sum of the sums over each third. -/
theorem sum_thirds {M : Type*} [AddCommMonoid M] (w W : ℕ) (hW : W = w + w + w) (f : Fin W → M) :
    ∑ k : Fin W, f k
      = (∑ k : Fin w, f ⟨k.val, by omega⟩ + ∑ k : Fin w, f ⟨w + k.val, by omega⟩) + ∑ k : Fin w, f ⟨w + w + k.val, by omega⟩ := by
  subst hW
  rw [Fin.sum_univ_add, Fin.sum_univ_add]
  rfl

/-- A row of three side-by-side blocks against a column of a matrix with three times as many rows: the sum over all
    the columns splits into the three blocks' sums against the matching third of the rows. -/
theorem sum_concat3_mul {n w W d : ℕ} (hW : W = w + w + w) (x₀ x₁ x₂ : (⟨2, ![n, w]⟩ : Shape).Idx → EReal)
    (h : Shape.Concatenates [(⟨2, ![n, w]⟩ : Shape), ⟨2, ![n, w]⟩, ⟨2, ![n, w]⟩] ⟨2, ![n, W]⟩ 1)
    (y : (⟨2, ![W, d]⟩ : Shape).Idx → EReal) (r : Fin n) (j : Fin d) :
    ∑ k : Fin W, concatenate ⟨2, ![n, W]⟩ 1 [⟨⟨2, ![n, w]⟩, x₀⟩, ⟨⟨2, ![n, w]⟩, x₁⟩, ⟨⟨2, ![n, w]⟩, x₂⟩] h (ix2 r k) * y (ix2 k j)
      = (∑ k : Fin w, x₀ (ix2 r k) * y (ix2 ⟨k.val, by omega⟩ j) + ∑ k : Fin w, x₁ (ix2 r k) * y (ix2 ⟨w + k.val, by omega⟩ j))
          + ∑ k : Fin w, x₂ (ix2 r k) * y (ix2 ⟨w + w + k.val, by omega⟩ j) := by
  rw [sum_thirds w W hW]
  refine congrArg₂ (· + ·) (congrArg₂ (· + ·) ?_ ?_) ?_
  · exact Finset.sum_congr rfl fun k _ => congrArg (· * _) (concat3_apply_0 x₀ x₁ x₂ h r k (by omega))
  · exact Finset.sum_congr rfl fun k _ => congrArg (· * _) (concat3_apply_1 x₀ x₁ x₂ h r k (by omega))
  · exact Finset.sum_congr rfl fun k _ => congrArg (· * _) (concat3_apply_2 x₀ x₁ x₂ h r k (by omega))

end Cert.Lib.RowOps

end
-- ==== Proof.LibFlatLayout.lean ====
/-
  Host layout operations read at an index given by coordinates, over symbolic extents: the leading entries of a
  vector, a matrix flattened row by row and a vector cut into rows, a vector padded at its end read below the
  padding, and the first of two columns laid side by side.
-/
import Idealize.ShloMosaic.Lib.Pipeline.Value
import Idealize.ShloMosaic.Lib.KernelVsHost
import Idealize.ShloMosaic.Lib.ValueIdx

noncomputable section

namespace Cert.Layout

open Idealize.ShloMosaic Idealize.ShloMosaic.ValueIdx

variable {α : Type}

/-- The first `m` entries of a vector: entry `i` of the slice is entry `i` of the vector. -/
theorem slice_prefix_apply {n m : Nat} (x : (⟨1, ![n]⟩ : Shape).Idx → α)
    (h : (⟨1, ![n]⟩ : Shape).Slices ![0] ⟨1, ![m]⟩) (i : Fin m) (k : Fin n) (hk : k.val = i.val) :
    extractStridedSlice ⟨1, ![m]⟩ ![0] x h (ix1 i) = x (ix1 k) := by
  refine extractStridedSlice_apply ![0] x h (ix1 i) (ix1 k) ?_
  intro a
  fin_cases a
  show k.val = 0 + i.val
  omega

/-- A matrix flattened row by row: entry `k = r · C + c` of the flat vector is entry `(r, c)`. -/
theorem flatten_apply {R C n : Nat} (x : (⟨2, ![R, C]⟩ : Shape).Idx → α)
    (h : (⟨2, ![R, C]⟩ : Shape).ShapeCasts ⟨1, ![n]⟩) (k : Fin n) (r : Fin R) (c : Fin C)
    (hk : r.val * C + c.val = k.val) : shapeCast ⟨1, ![n]⟩ x h (ix1 k) = x (ix2 r c) :=
  shapeCast_apply x h _ _ (by
    rw [Shape.rowMajor_val_two, Shape.rowMajor_val_one]
    show r.val * C + c.val = k.val
    exact hk)

/-- A vector cut into rows of length `C`: entry `(r, c)` is entry `r · C + c` of the vector. -/
theorem unflatten_apply {R C n : Nat} (x : (⟨1, ![n]⟩ : Shape).Idx → α)
    (h : (⟨1, ![n]⟩ : Shape).ShapeCasts ⟨2, ![R, C]⟩) (r : Fin R) (c : Fin C) (k : Fin n)
    (hk : k.val = r.val * C + c.val) : shapeCast ⟨2, ![R, C]⟩ x h (ix2 r c) = x (ix1 k) :=
  shapeCast_apply x h _ _ (by
    rw [Shape.rowMajor_val_one, Shape.rowMajor_val_two]
    show k.val = r.val * C + c.val
    exact hk)

/-- A vector padded only at its end: below the padding, entry `j` of the padded vector is entry `j` of the vector. -/
theorem pad_end_apply {n m p : Nat} (x : (⟨1, ![n]⟩ : Shape).Idx → α) {u : Shape} (v : u.Idx → α)
    (h : (⟨1, ![n]⟩ : Shape).Pads ![0] ![p] ![0] ⟨1, ![m]⟩) (hu : 0 < u.numel) (j : Fin m) (k : Fin n)
    (hk : j.val = k.val) : pad ⟨1, ![m]⟩ ![0] ![p] ![0] x v h hu (ix1 j) = x (ix1 k) := by
  refine pad_apply_of_inside ![0] ![p] ![0] x v h hu (ix1 j) (ix1 k) ?_
  intro a
  fin_cases a
  show j.val = 0 + k.val * (0 + 1)
  omega

/-- Two columns side by side: column 0 of the result is the first column. -/
theorem concat_cols_left_apply {E : Nat} (x₁ x₂ : (⟨2, ![E, 1]⟩ : Shape).Idx → α)
    (h : Shape.Concatenates [(⟨2, ![E, 1]⟩ : Shape), ⟨2, ![E, 1]⟩] ⟨2, ![E, 2]⟩ 1) (e : Fin E) (c : Fin 2)
    (hc : c.val = 0) :
    concatenate ⟨2, ![E, 2]⟩ 1 [⟨⟨2, ![E, 1]⟩, x₁⟩, ⟨⟨2, ![E, 1]⟩, x₂⟩] h (ix2 e c) = x₁ (ix2 e (0 : Fin 1)) := by
  refine concatenate_pair_apply_left 1 x₁ x₂ h (ix2 e c) rfl (ix2 e (0 : Fin 1)) ?_
  intro b
  fin_cases b
  · rfl
  · show (0 : ℕ) = c.val
    omega

end Cert.Layout

end
-- ==== Proof.KernelBody.lean ====
/-
  What one grid point of the kernel computes, read at an entry of its output block.

  The body loads a block of 2048 rows of `x` and the whole of `q`, multiplies the block into `q`, multiplies the
  product entrywise by the block, sums each row, and lays the 2048 row sums out row-major as 16 rows of 128. So entry
  `(p, l)` of the output block is the quadratic form of row `p · 128 + l` of the block.
-/
import proofs.«108391_j48507360641147_2_alg».proof.Proof.Gen.KernelIdeal.Skeleton
import proofs.«108391_j48507360641147_2_alg».proof.Proof.QuadForm
import proofs.«108391_j48507360641147_2_alg».proof.Proof.LibPlainDot
import proofs.«108391_j48507360641147_2_alg».proof.Proof.LibRowOps
import proofs.«108391_j48507360641147_2_alg».proof.Proof.LibFlatLayout
import Idealize.ShloMosaic.Lib.Pipeline.Value

noncomputable section

namespace Cert.KernelIdeal.Body

open Cert.KernelIdeal Cert.KernelIdeal.Gen Idealize.ShloMosaic Idealize.ShloMosaic.ValueIdx
open Cert.QuadForm
open scoped BigOperators

/-- Entry `(p, l)` of the block the body stores is the quadratic form of row `k = p · 128 + l` of the loaded
    block of `x` under the loaded `q`. -/
theorem pay_apply (x0 : Vec Ideal S2048x512 .f32) (x1 : Vec Ideal S512x512 .bf16) (p : Fin 16) (l : Fin 128)
    (k : Fin 2048) (hk : k.val = p.val * 128 + l.val) :
    k0_pay1 (F := Ideal) x0 x1 (ix2 p l) = qform x0 x1 k := by
  unfold k0_pay1
  refine (Cert.Layout.unflatten_apply _ shapeCasts_S2048_S16x128 p l k hk).trans ?_
  refine (Cert.Lib.RowOps.rowSum_apply _ _ reduces_S2048x512_S2048 (.inl rfl) rfl k).trans ?_
  unfold qform
  refine Finset.sum_congr rfl fun g _ => ?_
  show (matmul (F := Ideal) dot_S2048x512_S512x512_S2048x512_1_0_0_1_n_n none (truncf (F := Ideal) .bf16 x0 bitsLt_bf16_f32)
      (shapeCast S512x512 x1 shapeCasts_S512x512_S512x512) (constant (F := Ideal) S2048x512 .f32 0x00000000#32)) (ix2 k g) * x0 (ix2 k g) = _
  refine congrArg (· * x0 (ix2 k g)) ?_
  refine (Cert.Lib.PlainDot.matmul_zero_apply dot_S2048x512_S512x512_S2048x512_1_0_0_1_n_n rfl none
    (truncf (F := Ideal) .bf16 x0 bitsLt_bf16_f32) (shapeCast S512x512 x1 shapeCasts_S512x512_S512x512) (ix2 k g)).trans ?_
  unfold Cert.Lib.PlainDot.mm
  refine Finset.sum_congr rfl fun f _ => ?_
  have e1 : Cert.Lib.PlainDot.rowIdx (K := 512) (ix2 k g) f = ix2 k f :=
    funext fun a => Fin.ext (by match a with | ⟨0, _⟩ => rfl | ⟨1, _⟩ => rfl)
  have e2 : Cert.Lib.PlainDot.colIdx (K := 512) (ix2 k g) f = ix2 f g :=
    funext fun a => Fin.ext (by match a with | ⟨0, _⟩ => rfl | ⟨1, _⟩ => rfl)
  rw [e1, e2, shapeCast_self]
  rfl

end Cert.KernelIdeal.Body

end
-- ==== Proof.LibRegroup.lean ====
/-
  Row-major regroupings of an array's axes read at an index given by coordinates, over symbolic extents: a matrix
  recut into a matrix of another row length, a matrix recut into a rank-3 array and back, the leading rows of a
  matrix, and a rank-3 array padded with extra slabs at the end of its leading axis. A reshape never moves an
  element in the row-major order, so each lemma asks for one arithmetic fact: the two indices have the same
  row-major position.
-/
import Idealize.ShloMosaic.Lib.Pipeline.Value
import Idealize.ShloMosaic.Lib.KernelVsHost
import Idealize.ShloMosaic.Lib.ValueIdx

noncomputable section

namespace Cert.Regroup

open Idealize.ShloMosaic Idealize.ShloMosaic.ValueIdx

variable {α : Type}

/-- A matrix `[A, B]` recut as `[A', B']`: entry `(r, c)` of the result is the entry `(r0, c0)` with the same
    row-major position. -/
theorem cast22_apply {A B A' B' : Nat} (y : (⟨2, ![A, B]⟩ : Shape).Idx → α)
    (h : (⟨2, ![A, B]⟩ : Shape).ShapeCasts ⟨2, ![A', B']⟩) (r : Fin A') (c : Fin B') (r0 : Fin A) (c0 : Fin B)
    (hk : r0.val * B + c0.val = r.val * B' + c.val) : shapeCast ⟨2, ![A', B']⟩ y h (ix2 r c) = y (ix2 r0 c0) :=
  shapeCast_apply y h _ _ (by
    rw [Shape.rowMajor_val_two, Shape.rowMajor_val_two]
    show r0.val * B + c0.val = r.val * B' + c.val
    exact hk)

/-- A matrix `[A, B]` recut as a rank-3 array `[A', B', C']`. -/
theorem cast23_apply {A B A' B' C' : Nat} (y : (⟨2, ![A, B]⟩ : Shape).Idx → α)
    (h : (⟨2, ![A, B]⟩ : Shape).ShapeCasts ⟨3, ![A', B', C']⟩) (r : Fin A') (t : Fin B') (g : Fin C') (r0 : Fin A)
    (c0 : Fin B) (hk : r0.val * B + c0.val = (r.val * B' + t.val) * C' + g.val) :
    shapeCast ⟨3, ![A', B', C']⟩ y h (ix3 r t g) = y (ix2 r0 c0) :=
  shapeCast_apply y h _ _ (by
    rw [Shape.rowMajor_val_two, Shape.rowMajor_val_three]
    show r0.val * B + c0.val = (r.val * B' + t.val) * C' + g.val
    exact hk)

/-- A rank-3 array `[A, B, C]` recut as a matrix `[A', B']`. -/
theorem cast32_apply {A B C A' B' : Nat} (y : (⟨3, ![A, B, C]⟩ : Shape).Idx → α)
    (h : (⟨3, ![A, B, C]⟩ : Shape).ShapeCasts ⟨2, ![A', B']⟩) (r : Fin A') (c : Fin B') (n : Fin A) (t : Fin B)
    (f : Fin C) (hk : (n.val * B + t.val) * C + f.val = r.val * B' + c.val) :
    shapeCast ⟨2, ![A', B']⟩ y h (ix2 r c) = y (ix3 n t f) :=
  shapeCast_apply y h _ _ (by
    rw [Shape.rowMajor_val_three, Shape.rowMajor_val_two]
    show (n.val * B + t.val) * C + f.val = r.val * B' + c.val
    exact hk)

/-- The leading `m` rows of a matrix: entry `(i, c)` of the slice is entry `(i, c)` of the matrix. -/
theorem slice_rows_apply {M m C : Nat} (x : (⟨2, ![M, C]⟩ : Shape).Idx → α)
    (h : (⟨2, ![M, C]⟩ : Shape).Slices ![0, 0] ⟨2, ![m, C]⟩) (i : Fin m) (c : Fin C) (k : Fin M) (hk : k.val = i.val) :
    extractStridedSlice ⟨2, ![m, C]⟩ ![0, 0] x h (ix2 i c) = x (ix2 k c) := by
  refine extractStridedSlice_apply ![0, 0] x h (ix2 i c) (ix2 k c) ?_
  intro a
  match a with
  | ⟨0, _⟩ => show k.val = 0 + i.val; omega
  | ⟨1, _⟩ => show c.val = 0 + c.val; omega

/-- A rank-3 array padded with `p` extra slabs at the end of its leading axis, read at a slab of the array:
    the array's own entry. -/
theorem pad_slabs_inside {N M T C p : Nat} (x : (⟨3, ![N, T, C]⟩ : Shape).Idx → α) {u : Shape} (v : u.Idx → α)
    (h : (⟨3, ![N, T, C]⟩ : Shape).Pads ![0, 0, 0] ![p, 0, 0] ![0, 0, 0] ⟨3, ![M, T, C]⟩) (hu : 0 < u.numel)
    (n : Fin M) (t : Fin T) (f : Fin C) (k : Fin N) (hk : n.val = k.val) :
    pad ⟨3, ![M, T, C]⟩ ![0, 0, 0] ![p, 0, 0] ![0, 0, 0] x v h hu (ix3 n t f) = x (ix3 k t f) := by
  refine pad_apply_of_inside ![0, 0, 0] ![p, 0, 0] ![0, 0, 0] x v h hu (ix3 n t f) (ix3 k t f) ?_
  intro a
  match a with
  | ⟨0, _⟩ => show n.val = 0 + k.val * (0 + 1); omega
  | ⟨1, _⟩ => show t.val = 0 + t.val * (0 + 1); omega
  | ⟨2, _⟩ => show f.val = 0 + f.val * (0 + 1); omega

/-- … and read at one of the extra slabs: the padding value. -/
theorem pad_slabs_outside {N M T C p : Nat} (x : (⟨3, ![N, T, C]⟩ : Shape).Idx → α) {u : Shape} (v : u.Idx → α)
    (h : (⟨3, ![N, T, C]⟩ : Shape).Pads ![0, 0, 0] ![p, 0, 0] ![0, 0, 0] ⟨3, ![M, T, C]⟩) (hu : 0 < u.numel)
    (n : Fin M) (t : Fin T) (f : Fin C) (hn : N ≤ n.val) :
    pad ⟨3, ![M, T, C]⟩ ![0, 0, 0] ![p, 0, 0] ![0, 0, 0] x v h hu (ix3 n t f) = v (Shape.Idx.first hu) := by
  refine pad_apply_of_not_inside ![0, 0, 0] ![p, 0, 0] ![0, 0, 0] x v h hu (ix3 n t f) (0 : Fin 3) ?_
  intro hc
  have h3 : (n.val - 0) / (0 + 1) < N := hc.2.2
  simp only [Nat.sub_zero, Nat.zero_add, Nat.div_one] at h3
  omega

end Cert.Regroup

end
-- ==== Proof.KernelArray.lean ====
/-
  The array the kernel leaves, and the result after the closing reshape.

  Grid point `t` stages rows `2048 t … 2048 t + 2047` of `x` and the whole of `q` (converted on the host beforehand,
  which is the identity on extended reals), and writes back rows `16 t … 16 t + 15` of a `1024 × 128` array. Entry
  `(p, l)` of that block is the quadratic form of row `128 p + l` of the staged rows, so entry `(r, l)` of the array
  is the quadratic form of row `128 r + l` of `x`: the array is the vector of all 131072 quadratic forms laid out
  row-major. The 64 blocks tile the array. The closing reshape to a `131072 × 1` column keeps the row-major order,
  so entry `(b, 0)` of the result is the quadratic form of row `b`.
-/
import proofs.«108391_j48507360641147_2_alg».proof.Proof.Gen.KernelIdeal.Frame
import proofs.«108391_j48507360641147_2_alg».proof.Proof.KernelBody
import proofs.«108391_j48507360641147_2_alg».proof.Proof.LibRegroup
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.QuadForm

variable (m : (ℓ : Loc nD τ sig) → Buf (Elt Ideal) ℓ) (ρ : Dev nD → PrngReg)

theorem hz : (![0, 0] : Fin 2 → Nat) = fun _ => 0 := funext fun a => by fin_cases a <;> rfl

/-- The block index of each window at each of the 64 grid points: the rows of `x` and of the output advance with
    the point, `q` stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row of `x` that position `(r, l)` of the `1024 × 128` array stands for. -/
def rowOf (i : S1024x128.Idx) : Fin 131072 :=
  ⟨(i 0).val * 128 + (i 1).val, by
    have h0 : (i 0).val < 1024 := (i 0).isLt
    have h1 : (i 1).val < 128 := (i 1).isLt
    omega⟩

/-- The array of all row-wise quadratic forms of the launch contents, 128 to a row. -/
def G (c : Dev nD) : Buf (Elt Ideal) ((c : Thread nD τ).loc main_v1) :=
  fun i => qform (B := 131072) (K := 512) (m ((c : Thread nD τ).loc main_arg0)) (m ((c : Thread nD τ).loc main_arg1)) (rowOf i)

/-- The column of all row-wise quadratic forms of the launch contents. -/
def col (c : Dev nD) : Buf (Elt Ideal) ((c : Thread nD τ).loc main_v2) :=
  fun i => qform (B := 131072) (K := 512) (m ((c : Thread nD τ).loc main_arg0)) (m ((c : Thread nD τ).loc main_arg1)) (i 0)

/-- Row `k` of the block of `x` staged at point `t` is row `2048 t + k` of `x`. -/
theorem iblk0_apply (c : Dev nD) (t : Fin cfg0.N) (k : Fin 2048) (f : Fin 512) (r : Fin 131072)
    (hr : r.val = t.val * 2048 + k.val) :
    (iblk m c 0 t : Vec Ideal S2048x512 .f32) (ix2 k f)
      = (m ((c : Thread nD τ).loc main_arg0) : S131072x512.Idx → EReal) (ix2 r f) := by
  obtain ⟨e0, e1, -⟩ := idx_facts t
  unfold iblk
  rw [View.read_apply]
  show V m c main_arg0 (((cfg0.win 0).blk t).view.emb (ix2 k f)) = _
  rw [V_main_arg0]
  refine congrArg (m ((c : Thread nD τ).loc main_arg0) : S131072x512.Idx → EReal) (funext fun a => Fin.ext ?_)
  match a with
  | ⟨0, _⟩ => show win0_0.index t (0 : Fin 2) * 2048 + 1 * k.val = r.val; omega
  | ⟨1, _⟩ => show win0_0.index t (1 : Fin 2) * 512 + 1 * f.val = f.val; omega

/-- The host's conversion of `q` before the launch changes nothing on the extended reals. -/
theorem q_found (c : Dev nD) :
    (V m c main_v0 : S512x512.Idx → EReal) = (m ((c : Thread nD τ).loc main_arg1) : S512x512.Idx → EReal) := by
  show StableHlo.after hostOps0 (fun b => m (c, b)) (Proc.devRef .tc main_v0) = _
  after_results
  rfl

/-- The block of `q` staged at every point is `q`. -/
theorem iblk1_apply (c : Dev nD) (t : Fin cfg0.N) (f g : Fin 512) :
    (iblk m c 1 t : Vec Ideal S512x512 .bf16) (ix2 f g)
      = (m ((c : Thread nD τ).loc main_arg1) : S512x512.Idx → EReal) (ix2 f g) := by
  obtain ⟨-, -, e2, e3, -⟩ := idx_facts t
  unfold iblk
  rw [View.read_apply]
  show (V m c main_v0 : S512x512.Idx → EReal) (((cfg0.win 1).blk t).view.emb (ix2 f g)) = _
  rw [q_found]
  refine congrArg (m ((c : Thread nD τ).loc main_arg1) : S512x512.Idx → EReal) (funext fun a => Fin.ext ?_)
  match a with
  | ⟨0, _⟩ => show win0_1.index t (0 : Fin 2) * 512 + 1 * f.val = f.val; omega
  | ⟨1, _⟩ => show win0_1.index t (1 : Fin 2) * 512 + 1 * g.val = g.val; omega

/-- What point `t` writes back is block `t` of the array of quadratic forms: entry `(p, l)` of the block the body
    stores is the quadratic form of row `128 p + l` of the staged rows, which is row `128 (16 t + p) + l` of `x`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz]
  simp only [View.ld_unit_zero (S := S2048x512) hz, View.ld_unit_zero (S := S512x512) hz]
  obtain ⟨-, -, -, -, e4, e5⟩ := idx_facts t
  funext y
  obtain ⟨p, l, rfl⟩ : ∃ (p : Fin 16) (l : Fin 128), y = ix2 p l := ⟨y 0, y 1, eq_ix2 y⟩
  have hp : p.val < 16 := p.isLt
  have hl : l.val < 128 := l.isLt
  show k0_pay1 (F := Ideal) (iblk m c 0 t) (iblk m c 1 t) (ix2 p l) = G m c (((cfg0.win 2).blk t).view.emb (ix2 p l))
  refine (Cert.KernelIdeal.Body.pay_apply (iblk m c 0 t) (iblk m c 1 t) p l ⟨p.val * 128 + l.val, by omega⟩ rfl).trans ?_
  unfold G
  have h0 : ((((cfg0.win 2).blk t).view.emb (ix2 p l)) 0).val = win0_2.index t (0 : Fin 2) * 16 + 1 * p.val := rfl
  have h1 : ((((cfg0.win 2).blk t).view.emb (ix2 p l)) 1).val = win0_2.index t (1 : Fin 2) * 128 + 1 * l.val := rfl
  refine qform_congr _ _ _ _ _ _ (fun f => iblk0_apply m c t _ f _ ?_) (fun f g => iblk1_apply m c t f g)
  show (((((cfg0.win 2).blk t).view.emb (ix2 p l)) 0).val * 128 + ((((cfg0.win 2).blk t).view.emb (ix2 p l)) 1).val) = t.val * 2048 + (p.val * 128 + l.val)
  omega

/-- An index of the array lies in point `t`'s block iff each coordinate lies in the block's range on its axis. -/
theorem mem_blk (t : Fin cfg0.N) (i : S1024x128.Idx) :
    i ∈ ((cfg0.win 2).blk t).view.set ↔ ∀ a : Fin 2, win0_2.index t a * S16x128.size a ≤ (i a).val ∧ (i a).val < win0_2.index t a * S16x128.size a + S16x128.size a := by
  show i ∈ ((View.whole main_v1).slice (win0_2.rect t)).set ↔ _
  rw [View.set_slice_whole, Rect.mem_set_unit]
  exact Iff.rfl

/-- Row `r` of the array is written back by point `r / 16`: the 64 blocks of 16 rows tile the 1024 rows. -/
theorem cover (i : S1024x128.Idx) : ∃ t : Fin cfg0.N, (cfg0.win 2).flush t = true ∧ i ∈ ((cfg0.win 2).blk t).view.set := by
  have hi0 : (i 0).val < 1024 := (i 0).isLt
  have hi1 : (i 1).val < 128 := (i 1).isLt
  have hN : cfg0.N = 64 := N_0
  let t : Fin cfg0.N := ⟨(i 0).val / 16, by rw [hN]; omega⟩
  have ht : t.val = (i 0).val / 16 := rfl
  obtain ⟨-, -, -, -, e4, e5⟩ := idx_facts t
  refine ⟨t, flush0_2 t, ?_⟩
  rw [mem_blk]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 128 ≤ (i 1).val ∧ (i 1).val < win0_2.index t (1 : Fin 2) * 128 + 128; omega

/-- After the last point the output array is the array of quadratic forms. -/
theorem final (c : Dev nD) : (dats m 0 c).arrAt 2 cfg0.N = G m c :=
  (dats m 0 c).arrAt_eq_of_cover 2 (G m c) (fun t _ => flushed_eq m c t) cover

/-- The closing reshape keeps the row-major order: entry `(b, 0)` of the column is entry `(b / 128, b % 128)` of the
    array, the quadratic form of row `b`. So the program's result is the column of quadratic forms. -/
theorem tail_eq (c : Dev nD) :
    Pipeline.afterTail₀ cfgs (dats m) 0 (V0 m) [hostOps1] c main_v2 = col m c := by
  unfold Pipeline.afterTail₀
  show StableHlo.after hostOps1 _ (Proc.devRef .tc main_v2) = _
  after_results
  have hA : (Pipeline.withArrays spec0 c (V0 m c) (fun w => (dats m 0 c).arrAt w cfg0.N) (Proc.devRef .tc main_v1)
      : S1024x128.Idx → EReal) = (G m c : S1024x128.Idx → EReal) :=
    (Pipeline.withArrays_arr spec0 launch0.win.arr_inj c _ _ 2).trans (final m c)
  funext i
  obtain ⟨b, u, rfl⟩ : ∃ (b : Fin 131072) (u : Fin 1), i = ix2 b u := ⟨i 0, i 1, eq_ix2 i⟩
  have hb : b.val < 131072 := b.isLt
  have hu : u.val = 0 := by omega
  show shapeCast S131072x1 (Pipeline.withArrays spec0 c (V0 m c) (fun w => (dats m 0 c).arrAt w cfg0.N) (Proc.devRef .tc main_v1)
      : S1024x128.Idx → EReal) shapeCasts_S1024x128_S131072x1 (ix2 b u) = _
  refine (congrArg (fun A : S1024x128.Idx → EReal => shapeCast S131072x1 A shapeCasts_S1024x128_S131072x1 (ix2 b u)) hA).trans ?_
  refine (Cert.Regroup.cast22_apply (G m c : S1024x128.Idx → EReal) shapeCasts_S1024x128_S131072x1 b u
    ⟨b.val / 128, by omega⟩ ⟨b.val % 128, by omega⟩ ?_).trans ?_
  · show b.val / 128 * 128 + b.val % 128 = b.val * 1 + u.val
    omega
  · unfold G col
    refine congrArg (qform (B := 131072) (K := 512) (m ((c : Thread nD τ).loc main_arg0)) (m ((c : Thread nD τ).loc main_arg1))) (Fin.ext ?_)
    show b.val / 128 * 128 + b.val % 128 = b.val
    omega

/-- The kernel's run, read: the result is the column of the rows' quadratic forms of the launch contents, and the
    arguments end as launched. -/
theorem run : θ_run defs (onTc (τ := τ) (main (F := Ideal))) ⟨m, fun _ => 0, ρ⟩ fun r => ∀ c : Dev nD,
      r.2.mem ((c : Thread nD τ).loc main_v2) = col m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.Whole

end
-- ==== Proof.RefQuadForm.lean ====
/-
  The reference at an index.

  The reference multiplies `x` into `q`, multiplies the product entrywise by `x`, sums each row from zero and
  stands the sums up as a column. Entry `(b, 0)` of the column is therefore zero plus the quadratic form of row `b`.
-/
import proofs.«108391_j48507360641147_2_alg».proof.Proof.Gen.ReferenceIdeal.Read
import proofs.«108391_j48507360641147_2_alg».proof.Proof.QuadForm

noncomputable section

namespace Cert.ReferenceIdeal.RefValue

open Cert.ReferenceIdeal Cert.ReferenceIdeal.Read Idealize.ShloMosaic Idealize.ShloMosaic.ValueIdx
open Cert.QuadForm
open scoped BigOperators

/-- Entry `(b, 0)` of the reference's result is the quadratic form of row `b` of `x` under `q`. -/
theorem ref_apply (x : (⟨S131072x512, .f32⟩ : BufTy).Contents (Elt Ideal)) (q : (⟨S512x512, .f32⟩ : BufTy).Contents (Elt Ideal))
    (b : Fin 131072) (u : Fin 1) : val_main_v3 (F := Ideal) x q (ix2 b u) = qform x q b := by
  rw [val_main_v3_apply, val_main_v2_apply, val_main_cst_apply]
  unfold qform
  simp only [Ideal.ofBits_def, Ideal.ofBits_zero_f32, zero_add]
  refine Finset.sum_congr rfl fun g _ => ?_
  have e0 : idx_main_v2 (idx_main_v3 (ix2 b u)) g = ix2 b g :=
    funext fun a => Fin.ext (by match a with | ⟨0, _⟩ => rfl | ⟨1, _⟩ => rfl)
  rw [e0, val_main_v1_apply, val_main_v0_apply, Ideal.mulf_def]
  refine congrArg (· * x (ix2 b g)) ?_
  refine Finset.sum_congr rfl fun f _ => ?_
  have e1 : lidx_main_v0 (ix2 b g) f = ix2 b f :=
    funext fun a => Fin.ext (by match a with | ⟨0, _⟩ => rfl | ⟨1, _⟩ => rfl)
  have e2 : ridx_main_v0 (ix2 b g) f = ix2 f g :=
    funext fun a => Fin.ext (by match a with | ⟨0, _⟩ => rfl | ⟨1, _⟩ => rfl)
  rw [e1, e2]

end Cert.ReferenceIdeal.RefValue

end
-- ==== Proof.lean ====
/-
  The kernel computes, for every row `b` of `x`, the quadratic form Σ_g (Σ_f x(b,f) · q(f,g)) · x(b,g), 2048 rows to a
  grid point, and the reference computes the same sums over the whole of `x` at once. On the extended reals a change
  of float format is the identity and both matrix products and both row sums are the plain sums, taken in the same
  grouping on the two sides, so the two results agree entry by entry with no appeal to finiteness: the kernel's side
  is read off its frame run block by block and through the closing reshape (Proof/KernelArray.lean over
  Proof/KernelBody.lean), the reference's side off its run one operation at a time (Proof/RefQuadForm.lean), and both
  are the column of quadratic forms of Proof/QuadForm.lean. The idealization rewrote nothing, so there is nothing to
  preserve; the three frames are the generated ones.
-/
import proofs.«108391_j48507360641147_2_alg».proof.Defs
import proofs.«108391_j48507360641147_2_alg».proof.Proof.Gen.Kernel
import proofs.«108391_j48507360641147_2_alg».proof.Proof.Gen.Kernel.Skeleton
import proofs.«108391_j48507360641147_2_alg».proof.Proof.Gen.Kernel.Launch
import proofs.«108391_j48507360641147_2_alg».proof.Proof.Gen.Kernel.Points
import proofs.«108391_j48507360641147_2_alg».proof.Proof.Gen.Kernel.Frame
import proofs.«108391_j48507360641147_2_alg».proof.Proof.Gen.KernelIdeal
import proofs.«108391_j48507360641147_2_alg».proof.Proof.Gen.KernelIdeal.Skeleton
import proofs.«108391_j48507360641147_2_alg».proof.Proof.Gen.KernelIdeal.Launch
import proofs.«108391_j48507360641147_2_alg».proof.Proof.Gen.KernelIdeal.Points
import proofs.«108391_j48507360641147_2_alg».proof.Proof.Gen.KernelIdeal.Frame
import proofs.«108391_j48507360641147_2_alg».proof.Proof.Gen.ReferenceIdeal
import proofs.«108391_j48507360641147_2_alg».proof.Proof.Gen.Pre_finite_inputs
import proofs.«108391_j48507360641147_2_alg».proof.Proof.Gen.ReferenceIdeal.Run
import proofs.«108391_j48507360641147_2_alg».proof.Proof.Gen.ReferenceIdeal.Read
import proofs.«108391_j48507360641147_2_alg».proof.Proof.KernelArray
import proofs.«108391_j48507360641147_2_alg».proof.Proof.RefQuadForm
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the column whose entry `(b, 0)` is the quadratic form of row `b` of `x` under `q`. -/
theorem algebraic : Cert.algebraic_KernelIdeal_ReferenceIdeal := by
  intro m ρ m' ρ' _ hagree
  refine ⟨fun c => Cert.KernelIdeal.Whole.col m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2]
  funext i
  obtain ⟨b, u, rfl⟩ : ∃ (b : Fin 131072) (u : Fin 1), i = ix2 b u := ⟨i 0, i 1, eq_ix2 i⟩
  exact Cert.ReferenceIdeal.RefValue.ref_apply _ _ b u

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
